-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x3 : Shape := ⟨3, ![256, 1024, 3]⟩
abbrev S3x256 : Shape := ⟨2, ![3, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S_ : Shape := ⟨0, ![]⟩

class Facts : Prop where
  bcast_S_S256x1024x3 : S_.BroadcastsInDim S256x1024x3 (![] : Fin 0 → Fin S256x1024x3.rank)
  reducesTo_S256x1024x3_S_d0_1_2 : S256x1024x3.ReducesTo [0, 1, 2] S_
  h_S_ : 0 < S_.numel
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S256x5 .f32) (main_arg8 : FVec F S5 .f32) (main_v33 : IVec S_ 1) : IVec S_ 1 :=
  let main_v34 : FVec F S256x5 .f32 := Host.absf main_arg7
  let main_cst_12 : FVec F S_ .f32 := constant S_ .f32 0x7F800000#32
  let main_v35 : FVec F S256x5 .f32 := broadcastInDim S256x5 ![] bcast_S_S256x5 main_cst_12
  let main_v36 : IVec S256x5 1 := cmpf .olt main_v34 main_v35
  let main_c_13 : IVec S_ 1 := constantI S_ 1 1#1
  let main_v37 : IVec S_ 1 := (fun x v => Host.reduce IntOp.andi x v reducesTo_S256x5_S_d0_1 h_S_) main_v36 main_c_13
  let main_v38 : IVec S_ 1 := andi main_v33 main_v37
  let main_v39 : FVec F S5 .f32 := Host.absf main_arg8
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x5 .f32) (main_arg8 : FVec F S5 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S256x1024x3 .f32) (main_arg1 : FVec F S3x256 .f32) (main_arg2 : FVec F S256 .f32) (main_arg3 : FVec F S256x256 .f32) (main_arg4 : FVec F S256 .f32) (main_arg5 : FVec F S256x256 .f32) (main_arg6 : FVec F S256 .f32) (main_arg7 : FVec F S256x5 .f32) (main_arg8 : FVec F S5 .f32) : IVec S_ 1 :=
  let main_v0 : FVec F S256x1024x3 .f32 := Host.absf main_arg0
  let main_cst : FVec F S_ .f32 := constant S_ .f32 0x7F800000#32
  let main_v1 : FVec F S256x1024x3 .f32 := broadcastInDim S256x1024x3 ![] bcast_S_S256x1024x3 main_cst
  let main_v2 : IVec S256x1024x3 1 := cmpf .olt main_v0 main_v1
  let main_c : IVec S_ 1 := constantI S_ 1 1#1
  let main_v3 : IVec S_ 1 := (fun x v => Host.reduce IntOp.andi x v reducesTo_S256x1024x3_S_d0_1_2 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S256x1024x3 : Shape := ⟨3, ![256, 1024, 3]⟩
abbrev S3x256 : Shape := ⟨2, ![3, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S32x1024x3 : Shape := ⟨3, ![32, 1024, 3]⟩
abbrev S32x5 : Shape := ⟨2, ![32, 5]⟩
abbrev S32x3 : Shape := ⟨2, ![32, 3]⟩
abbrev S32x256 : Shape := ⟨2, ![32, 256]⟩
abbrev S1x256 : Shape := ⟨2, ![1, 256]⟩
abbrev S1x5 : Shape := ⟨2, ![1, 5]⟩

abbrev nBuf : Space → Nat
  | .hbm => 10
  | .vmem => 12
  | .smem => 0
  | _ => 0

abbrev bufTy : (tb : Table) → Fin (tcTables nBuf tb) → BufTy
  | .hbm, ⟨0, _⟩ => ⟨S256x1024x3, .f32⟩
  | .hbm, ⟨1, _⟩ => ⟨S3x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x5, .f32⟩
  | .hbm, ⟨8, _⟩ => ⟨S5, .f32⟩
  | .hbm, ⟨9, _⟩ => ⟨S256x5, .f32⟩
  | .local _ .vmem, ⟨0, _⟩ => ⟨S32x1024x3, .f32⟩
  | .local _ .vmem, ⟨1, _⟩ => ⟨S32x1024x3, .f32⟩
  | .local _ .vmem, ⟨2, _⟩ => ⟨S3x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x5, .f32⟩
  | .local _ .vmem, ⟨9, _⟩ => ⟨S5, .f32⟩
  | .local _ .vmem, ⟨10, _⟩ => ⟨S32x5, .f32⟩
  | .local _ .vmem, ⟨11, _⟩ => ⟨S32x5, .f32⟩
  | _, _ => ⟨S256x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x5 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S32x1024x3_S32x1024x3_0_0_0 : ∀ a, (![0, 0, 0] : Fin 3 → Nat) a + S32x1024x3.size a ≤ S32x1024x3.size a
  h_S32x1024x3 : 0 < S32x1024x3.numel
  reduces_S32x1024x3_S32x3 : S32x1024x3.Reduces [1] S32x3
  inb_S3x256_S3x256_0_0 : ∀ a, (![0, 0] : Fin 2 → Nat) a + S3x256.size a ≤ S3x256.size a
  h_S3x256 : 0 < S3x256.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  inb_S256x256_S256x256_0_0 : ∀ a, (![0, 0] : Fin 2 → Nat) a + S256x256.size a ≤ S256x256.size a
  h_S256x256 : 0 < S256x256.numel
  inb_S256x5_S256x5_0_0 : ∀ a, (![0, 0] : Fin 2 → Nat) a + S256x5.size a ≤ S256x5.size a
  h_S256x5 : 0 < S256x5.numel
  inb_S5_S5_0 : ∀ a, (![0] : Fin 1 → Nat) a + S5.size a ≤ S5.size a
  h_S5 : 0 < S5.numel
  shapeCasts_S5_S1x5 : S5.ShapeCasts S1x5
  broadcasts_S1x5_S32x5 : S1x5.Broadcasts S32x5
  inb_S32x5_S32x5_0_0 : ∀ a, (![0, 0] : Fin 2 → Nat) a + S32x5.size a ≤ S32x5.size a
  h_S32x5 : 0 < S32x5.numel
  dot_S32x3_S3x256_S32x256_1_0_0_1_n_n_wf : DotDims.WF S32x3 S3x256 S32x256 [1] [0] [0] [1] [] []
  dot_S32x256_S256x256_S32x256_1_0_0_1_n_n_wf : DotDims.WF S32x256 S256x256 S32x256 [1] [0] [0] [1] [] []
  dot_S32x256_S256x5_S32x5_1_0_0_1_n_n_wf : DotDims.WF S32x256 S256x5 S32x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024x3.size a ≤ S256x1024x3.size a
  hwx0_0 : ∀ i : grid0.Coords, EltTy.bits .f32 = 32 ∨ (Rect.block (s := S256x1024x3) S32x1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x5.size a ≤ S256x5.size a
  hwx0_7 : ∀ i : grid0.Coords, EltTy.bits .f32 = 32 ∨ (Rect.block (s := S256x5) S256x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5.size a ≤ S5.size a
  hwx0_8 : ∀ i : grid0.Coords, EltTy.bits .f32 = 32 ∨ (Rect.block (s := S5) S5.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x5.size a ≤ S256x5.size a
  hwx0_9 : ∀ i : grid0.Coords, EltTy.bits .f32 = 32 ∨ (Rect.block (s := S256x5) S32x5.size (cc0_transform_9 i) (hinb0_9 i)).WholeWords (EltTy.packing .f32)

variable [Facts₀]

def dot_S32x3_S3x256_S32x256_1_0_0_1_n_n : DotDims S32x3 S3x256 S32x256 where
  lhsContracting := [1]
  rhsContracting := [0]
  lhsNonContracting := [0]
  rhsNonContracting := [1]
  lhsBatch := []
  rhsBatch := []
  wf := dot_S32x3_S3x256_S32x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x5_S32x5_1_0_0_1_n_n : DotDims S32x256 S256x5 S32x5 where
  lhsContracting := [1]
  rhsContracting := [0]
  lhsNonContracting := [0]
  rhsNonContracting := [1]
  lhsBatch := []
  rhsBatch := []
  wf := dot_S32x256_S256x5_S32x5_1_0_0_1_n_n_wf

abbrev win0_0 : Pipeline.Window sig grid0 :=
  Pipeline.Window.ofSpec (Memref.whole main_arg0) S32x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S32x5.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x1024x3 : Shape := ⟨3, ![256, 1024, 3]⟩
abbrev S3x256 : Shape := ⟨2, ![3, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S256x1024x256 : Shape := ⟨3, ![256, 1024, 256]⟩
abbrev S_ : Shape := ⟨0, ![]⟩
abbrev S256x1x256 : Shape := ⟨3, ![256, 1, 256]⟩
abbrev S1x1x256 : Shape := ⟨3, ![1, 1, 256]⟩
abbrev S1x256 : Shape := ⟨2, ![1, 256]⟩
abbrev S1x5 : Shape := ⟨2, ![1, 5]⟩

abbrev nBuf : Space → Nat
  | .hbm => 51
  | .vmem => 0
  | .smem => 0
  | _ => 0

abbrev bufTy : (tb : Table) → Fin (tcTables nBuf tb) → BufTy
  | .hbm, ⟨0, _⟩ => ⟨S256x1024x3, .f32⟩
  | .hbm, ⟨1, _⟩ => ⟨S3x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x5, .f32⟩
  | .hbm, ⟨8, _⟩ => ⟨S5, .f32⟩
  | .hbm, ⟨9, _⟩ => ⟨S256x1024x256, .f32⟩
  | .hbm, ⟨10, _⟩ => ⟨S_, .f32⟩
  | .hbm, ⟨11, _⟩ => ⟨S256x256, .f32⟩
  | .hbm, ⟨12, _⟩ => ⟨S256x1x256, .f32⟩
  | .hbm, ⟨13, _⟩ => ⟨S_, .f32⟩
  | .hbm, ⟨14, _⟩ => ⟨S256x1x256, .f32⟩
  | .hbm, ⟨15, _⟩ => ⟨S256x1x256, .f32⟩
  | .hbm, ⟨16, _⟩ => ⟨S256x1024x256, .f32⟩
  | .hbm, ⟨17, _⟩ => ⟨S1x1x256, .f32⟩
  | .hbm, ⟨18, _⟩ => ⟨S256x1024x256, .f32⟩
  | .hbm, ⟨19, _⟩ => ⟨S256x1024x256, .f32⟩
  | .hbm, ⟨20, _⟩ => ⟨S_, .f32⟩
  | .hbm, ⟨21, _⟩ => ⟨S256x1024x256, .f32⟩
  | .hbm, ⟨22, _⟩ => ⟨S256x1024x256, .f32⟩
  | .hbm, ⟨23, _⟩ => ⟨S256x1024x256, .f32⟩
  | .hbm, ⟨24, _⟩ => ⟨S_, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S1x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S1x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x5, .f32⟩
  | .hbm, ⟨40, _⟩ => ⟨S1x5, .f32⟩
  | .hbm, ⟨41, _⟩ => ⟨S256x5, .f32⟩
  | .hbm, ⟨42, _⟩ => ⟨S256x5, .f32⟩
  | .hbm, ⟨43, _⟩ => ⟨S256x5, .f32⟩
  | .hbm, ⟨44, _⟩ => ⟨S256x5, .f32⟩
  | .hbm, ⟨45, _⟩ => ⟨S_, .f32⟩
  | .hbm, ⟨46, _⟩ => ⟨S256x5, .f32⟩
  | .hbm, ⟨47, _⟩ => ⟨S256x5, .f32⟩
  | .hbm, ⟨48, _⟩ => ⟨S_, .f32⟩
  | .hbm, ⟨49, _⟩ => ⟨S256x5, .f32⟩
  | .hbm, ⟨50, _⟩ => ⟨S256x5, .f32⟩
  | _, _ => ⟨S256x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  reducesTo_S256x1024x256_S256x256_d1 : S256x1024x256.ReducesTo [1] S256x256
  h_S_ : 0 < S_.numel
  bcast_S256x256_S256x1x256_0_2 : S256x256.BroadcastsInDim S256x1x256 (![0, 2] : Fin 2 → Fin S256x1x256.rank)
  bcast_S_S256x1x256 : S_.BroadcastsInDim S256x1x256 (![] : Fin 0 → Fin S256x1x256.rank)
  bcast_S256x1x256_S256x1024x256_0_1_2 : S256x1x256.BroadcastsInDim S256x1024x256 (![0, 1, 2] : Fin 3 → Fin S256x1024x256.rank)
  bcast_S256_S1x1x256_2 : S256.BroadcastsInDim S1x1x256 (![2] : Fin 1 → Fin S1x1x256.rank)
  bcast_S1x1x256_S256x1024x256_0_1_2 : S1x1x256.BroadcastsInDim S256x1024x256 (![0, 1, 2] : Fin 3 → Fin S256x1024x256.rank)
  bcast_S_S256x1024x256 : S_.BroadcastsInDim S256x1024x256 (![] : Fin 0 → Fin S256x1024x256.rank)
  bcast_S_S256x256 : S_.BroadcastsInDim S256x256 (![] : Fin 0 → Fin S256x256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S5_S1x5_1 : S5.BroadcastsInDim S1x5 (![1] : Fin 1 → Fin S1x5.rank)
  bcast_S1x5_S256x5_0_1 : S1x5.BroadcastsInDim S256x5 (![0, 1] : Fin 2 → Fin S256x5.rank)
  bcast_S_S256x5 : S_.BroadcastsInDim S256x5 (![] : Fin 0 → Fin S256x5.rank)
  dot_S256x1024x3_S3x256_S256x1024x256_2_0_01_1_n_n_wf : DotDims.WF S256x1024x3 S3x256 S256x1024x256 [2] [0] [0, 1] [1] [] []
  dot_S256x1024x256_S256x256_S256x1024x256_2_0_01_1_n_n_wf : DotDims.WF S256x1024x256 S256x256 S256x1024x256 [2] [0] [0, 1] [1] [] []
  dot_S256x256_S256x256_S256x256_1_0_0_1_n_n_wf : DotDims.WF S256x256 S256x256 S256x256 [1] [0] [0] [1] [] []
  dot_S256x256_S256x5_S256x5_1_0_0_1_n_n_wf : DotDims.WF S256x256 S256x5 S256x5 [1] [0] [0] [1] [] []

variable [Facts₀]

def dot_S256x1024x3_S3x256_S256x1024x256_2_0_01_1_n_n : DotDims S256x1024x3 S3x256 S256x1024x256 where
  lhsContracting := [2]
  rhsContracting := [0]
  lhsNonContracting := [0, 1]
  rhsNonContracting := [1]
  lhsBatch := []
  rhsBatch := []
  wf := dot_S256x1024x3_S3x256_S256x1024x256_2_0_01_1_n_n_wf
def dot_S256x1024x256_S256x256_S256x1024x256_2_0_01_1_n_n : DotDims S256x1024x256 S256x256 S256x1024x256 where
  lhsContracting := [2]
  rhsContracting := [0]
  lhsNonContracting := [0, 1]
  rhsNonContracting := [1]
  lhsBatch := []
  rhsBatch := []
  wf := dot_S256x1024x256_S256x256_S256x1024x256_2_0_01_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x5_S256x5_1_0_0_1_n_n : DotDims S256x256 S256x5 S256x5 where
  lhsContracting := [1]
  rhsContracting := [0]
  lhsNonContracting := [0]
  rhsNonContracting := [1]
  lhsBatch := []
  rhsBatch := []
  wf := dot_S256x256_S256x5_S256x5_1_0_0_1_n_n_wf

class Facts : Prop extends Facts₀ where

variable [Facts]
-- ==== Proof.Spec.lean ====
/-
  The function both programs compute, one output row at a time, and the two laws that join their arrangements.

  A row of the result depends on one batch item's node features `xb : 1024 × 3` and on the weights.  The kernel
  first averages the node features over the 1024 nodes and then applies the first weight matrix; the reference
  applies the weight matrix to every node and averages afterwards, and after the first rectifier — whose value
  is the same at every node — it multiplies by the second weight matrix at every node and averages the 1024
  equal rows again.  On real numbers the two arrangements agree:

    (Σₙ Σ_d x n d · w d) / 1024 = Σ_d ((Σₙ x n d) / 1024) · w d      (a sum of products is linear in each factor)
    (Σₙ c) / 1024 = c                                                (the mean of 1024 equal numbers)

  Both laws fail at the infinities of the extended reals in general, so they are proved for arrays of reals and
  pushed through the coercion; the layers after the second one are the same expression on both sides.
-/
import Idealize.ShloMosaic.PureOps.Ideal
import Idealize.ShloMosaic.Lib.ValueIdx

noncomputable section

open scoped BigOperators

namespace Cert.GraphNet

open Idealize.ShloMosaic Idealize.ShloMosaic.ValueIdx

/-! ## Coercion of sums and maxima, and the three float literals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- The word `0x44800000` denotes the real 1024: the number of nodes both means divide by. -/
theorem ofBits_1024 : Ideal.ofBits .f32 0x44800000#32 = ((1024 : ℝ) : EReal) := by
  simp [Ideal.ofBits, Ideal.ieee, -EReal.coe_mul]; norm_num

/-- The word `0x3F800000` denotes 1: the numerator and the summand of the logistic function written out. -/
theorem ofBits_one : Ideal.ofBits .f32 0x3F800000#32 = 1 := by
  simp [Ideal.ofBits, Ideal.ieee, -EReal.coe_mul]; norm_num

/-- The word `0` denotes 0: the rectifier's threshold and the initial value of the reference's sums. -/
theorem ofBits_zero : Ideal.ofBits .f32 0x00000000#32 = 0 := by
  simp [Ideal.ofBits, Ideal.ieee]

/-! ## One row of the result -/

abbrev SW1 : Shape := ⟨2, ![3, 256]⟩
abbrev SV : Shape := ⟨1, ![256]⟩
abbrev SW : Shape := ⟨2, ![256, 256]⟩
abbrev SWf : Shape := ⟨2, ![256, 5]⟩
abbrev SVf : Shape := ⟨1, ![5]⟩

section rows

variable (xb : Fin 1024 → Fin 3 → EReal) (W1 : SW1.Idx → EReal) (b1 : SV.Idx → EReal) (W2 : SW.Idx → EReal)
  (b2 : SV.Idx → EReal) (Wr : SW.Idx → EReal) (br : SV.Idx → EReal) (Wf : SWf.Idx → EReal) (bf : SVf.Idx → EReal)

/-- The mean of feature `d` over the 1024 nodes. -/
def mean (d : Fin 3) : EReal := Ideal.div (∑ n : Fin 1024, xb n d) ((1024 : ℝ) : EReal)

/-- The first layer: the mean features times the first weight matrix, plus the bias, rectified. -/
def hid1 (k : Fin 256) : EReal := max (∑ d : Fin 3, mean xb d * W1 (ix2 d k) + b1 (ix1 k)) 0

/-- The second layer: the first times the second weight matrix, plus the bias (no rectifier). -/
def hid2 (k : Fin 256) : EReal := ∑ h : Fin 256, hid1 xb W1 b1 h * W2 (ix2 h k) + b2 (ix1 k)

/-- The readout layer: the second times the readout matrix, plus the bias, rectified. -/
def hid3 (k : Fin 256) : EReal :=
  max (∑ h : Fin 256, hid2 xb W1 b1 W2 b2 h * Wr (ix2 h k) + br (ix1 k)) 0

/-- The output row: the logistic function of the readout times the final matrix plus the bias. -/
def outRow (j : Fin 5) : EReal :=
  Ideal.logistic (∑ h : Fin 256, hid3 xb W1 b1 W2 b2 Wr br h * Wf (ix2 h j) + bf (ix1 j))

/-- The first layer as the reference arranges it: the weight matrix applied at every node, the result averaged
    over the nodes (a sum from 0, divided by 1024), then bias and rectifier.  It is the same at every node. -/
def refHid1 (k : Fin 256) : EReal :=
  max (Ideal.div (0 + ∑ n : Fin 1024, ∑ d : Fin 3, xb n d * W1 (ix2 d k)) ((1024 : ℝ) : EReal) + b1 (ix1 k)) 0

/-- The second layer as the reference arranges it: the second weight matrix applied to the (node-independent) first
    layer at every node, the 1024 equal rows averaged, then the bias. -/
def refHid2 (k : Fin 256) : EReal :=
  Ideal.div (0 + ∑ _n : Fin 1024, ∑ h : Fin 256, refHid1 xb W1 b1 h * W2 (ix2 h k)) ((1024 : ℝ) : EReal) + b2 (ix1 k)

/-- The readout layer over the reference's second layer. -/
def refHid3 (k : Fin 256) : EReal :=
  max (∑ h : Fin 256, refHid2 xb W1 b1 W2 b2 h * Wr (ix2 h k) + br (ix1 k)) 0

/-- The reference's output row, the logistic function written out as 1 / (1 + e^(-z)). -/
def refOutRow (j : Fin 5) : EReal :=
  Ideal.div 1 (1 + Ideal.exp (-(∑ h : Fin 256, refHid3 xb W1 b1 W2 b2 Wr br h * Wf (ix2 h j) + bf (ix1 j))))

/-! ## The two laws -/

/-- Averaging after the first weight matrix is averaging before it, for real features and real weights. -/
theorem refHid1_eq (hx : ∀ n d, ∃ r : ℝ, xb n d = (r : EReal)) (hW1 : ∀ i, ∃ r : ℝ, W1 i = (r : EReal)) (k : Fin 256) :
    refHid1 xb W1 b1 k = hid1 xb W1 b1 k := by
  obtain ⟨xr, rfl⟩ : ∃ xr : Fin 1024 → Fin 3 → ℝ, xb = fun n d => (xr n d : EReal) :=
    ⟨fun n d => (hx n d).choose, funext fun n => funext fun d => (hx n d).choose_spec⟩
  obtain ⟨wr, rfl⟩ : ∃ wr : SW1.Idx → ℝ, W1 = fun i => (wr i : EReal) :=
    ⟨fun i => (hW1 i).choose, funext fun i => (hW1 i).choose_spec⟩
  unfold refHid1 hid1 mean
  have e : Ideal.div (0 + ∑ n : Fin 1024, ∑ d : Fin 3, (xr n d : EReal) * (wr (ix2 d k) : EReal)) ((1024 : ℝ) : EReal)
      = ∑ d : Fin 3, Ideal.div (∑ n : Fin 1024, (xr n d : EReal)) ((1024 : ℝ) : EReal) * (wr (ix2 d k) : EReal) := by
    simp only [zero_add, Ideal.div_coe (by norm_num : (1024 : ℝ) ≠ 0), ← EReal.coe_mul, ← coe_sum]
    refine congrArg Real.toEReal ?_
    rw [Finset.sum_comm, Finset.sum_mul]
    refine Finset.sum_congr rfl fun d _ => ?_
    rw [← Finset.sum_mul]
    ring
  rw [e]

/-- The first layer of real inputs is a real. -/
theorem hid1_real (hx : ∀ n d, ∃ r : ℝ, xb n d = (r : EReal)) (hW1 : ∀ i, ∃ r : ℝ, W1 i = (r : EReal))
    (hb1 : ∀ i, ∃ r : ℝ, b1 i = (r : EReal)) (k : Fin 256) : ∃ r : ℝ, hid1 xb W1 b1 k = (r : EReal) := by
  obtain ⟨xr, rfl⟩ : ∃ xr : Fin 1024 → Fin 3 → ℝ, xb = fun n d => (xr n d : EReal) :=
    ⟨fun n d => (hx n d).choose, funext fun n => funext fun d => (hx n d).choose_spec⟩
  obtain ⟨wr, rfl⟩ : ∃ wr : SW1.Idx → ℝ, W1 = fun i => (wr i : EReal) :=
    ⟨fun i => (hW1 i).choose, funext fun i => (hW1 i).choose_spec⟩
  obtain ⟨br, rfl⟩ : ∃ br : SV.Idx → ℝ, b1 = fun i => (br i : EReal) :=
    ⟨fun i => (hb1 i).choose, funext fun i => (hb1 i).choose_spec⟩
  refine ⟨max (∑ d : Fin 3, (∑ n : Fin 1024, xr n d) * (1 / 1024) * wr (ix2 d k) + br (ix1 k)) 0, ?_⟩
  unfold hid1 mean
  simp only [Ideal.div_coe (by norm_num : (1024 : ℝ) ≠ 0), coe_max, EReal.coe_add, coe_sum, EReal.coe_mul, EReal.coe_zero]

/-- The mean of 1024 equal reals is that real. -/
theorem mean_const (c : ℝ) : Ideal.div (0 + ∑ _n : Fin 1024, (c : EReal)) ((1024 : ℝ) : EReal) = (c : EReal) := by
  rw [zero_add, Ideal.div_coe (by norm_num : (1024 : ℝ) ≠ 0), ← coe_sum, ← EReal.coe_mul]
  refine congrArg Real.toEReal ?_
  rw [Finset.sum_const, Finset.card_univ, Fintype.card_fin, nsmul_eq_mul]
  push_cast
  ring

/-- So the reference's second layer is the kernel's, for real features, weights and first bias. -/
theorem refHid2_eq (hx : ∀ n d, ∃ r : ℝ, xb n d = (r : EReal)) (hW1 : ∀ i, ∃ r : ℝ, W1 i = (r : EReal))
    (hb1 : ∀ i, ∃ r : ℝ, b1 i = (r : EReal)) (hW2 : ∀ i, ∃ r : ℝ, W2 i = (r : EReal)) (k : Fin 256) :
    refHid2 xb W1 b1 W2 b2 k = hid2 xb W1 b1 W2 b2 k := by
  unfold refHid2 hid2
  have e1 : ∀ h, refHid1 xb W1 b1 h = hid1 xb W1 b1 h := fun h => refHid1_eq xb W1 b1 hx hW1 h
  simp only [e1]
  obtain ⟨c, hc⟩ : ∃ c : ℝ, ∑ h : Fin 256, hid1 xb W1 b1 h * W2 (ix2 h k) = (c : EReal) := by
    refine ⟨∑ h : Fin 256, (hid1_real xb W1 b1 hx hW1 hb1 h).choose * (hW2 (ix2 h k)).choose, ?_⟩
    rw [coe_sum]
    refine Finset.sum_congr rfl fun h _ => ?_
    rw [EReal.coe_mul, ← (hid1_real xb W1 b1 hx hW1 hb1 h).choose_spec, ← (hW2 (ix2 h k)).choose_spec]
  rw [hc, mean_const]

/-- The output rows agree: the layers after the second are the same expression of it, and the logistic
    function is 1 / (1 + e^(-z)) by definition. -/
theorem refOutRow_eq (hx : ∀ n d, ∃ r : ℝ, xb n d = (r : EReal)) (hW1 : ∀ i, ∃ r : ℝ, W1 i = (r : EReal))
    (hb1 : ∀ i, ∃ r : ℝ, b1 i = (r : EReal)) (hW2 : ∀ i, ∃ r : ℝ, W2 i = (r : EReal)) (j : Fin 5) :
    refOutRow xb W1 b1 W2 b2 Wr br Wf bf j = outRow xb W1 b1 W2 b2 Wr br Wf bf j := by
  unfold refOutRow outRow refHid3 hid3 Ideal.logistic
  have e2 : ∀ h, refHid2 xb W1 b1 W2 b2 h = hid2 xb W1 b1 W2 b2 h := fun h => refHid2_eq xb W1 b1 W2 b2 hx hW1 hb1 hW2 h
  simp only [e2]

end rows

/-! ## The whole result -/

/-- The whole result array: row `b` is the output row of batch item `b`'s node features. -/
def result (x : (⟨3, ![256, 1024, 3]⟩ : Shape).Idx → EReal) (W1 : SW1.Idx → EReal) (b1 : SV.Idx → EReal)
    (W2 : SW.Idx → EReal) (b2 : SV.Idx → EReal) (Wr : SW.Idx → EReal) (br : SV.Idx → EReal) (Wf : SWf.Idx → EReal)
    (bf : SVf.Idx → EReal) : (⟨2, ![256, 5]⟩ : Shape).Idx → EReal :=
  fun i => outRow (fun n d => x (ix3 (i 0) n d)) W1 b1 W2 b2 Wr br Wf bf (i 1)

/-- Its entry at row `b`, column `j`. -/
theorem result_apply (x : (⟨3, ![256, 1024, 3]⟩ : Shape).Idx → EReal) (W1 : SW1.Idx → EReal) (b1 : SV.Idx → EReal)
    (W2 : SW.Idx → EReal) (b2 : SV.Idx → EReal) (Wr : SW.Idx → EReal) (br : SV.Idx → EReal) (Wf : SWf.Idx → EReal)
    (bf : SVf.Idx → EReal) (b : Fin 256) (j : Fin 5) :
    result x W1 b1 W2 b2 Wr br Wf bf (ix2 b j) = outRow (fun n d => x (ix3 b n d)) W1 b1 W2 b2 Wr br Wf bf j := rfl

end Cert.GraphNet

end
-- ==== Proof.LibPlainDot.lean ====
/-
  A plain matrix product's contraction read as a sum over the middle coordinate.  For dimension numbers that contract
  the left operand's second axis against the right operand's first, with no batch axis — an [M,K] by [K,N] product —
  the left operand's index at result position (a, b) and contraction position q is (a, q), the right operand's is
  (q, b), and so the contraction's sum over the one-axis contraction shape is the sum over q of L (a, q) · R (q, b).
  Stated for any such dimension-number record, whatever proof of well-formedness it carries, and for any extents.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat} (d : DotDims ⟨2, ![M, K]⟩ ⟨2, ![K, N]⟩ ⟨2, ![M, N]⟩)

/-- One axis is contracted. -/
theorem contr_rank (hlc : d.lhsContracting = [1]) : d.contr.rank = 1 := by rw [d.rank_contr, hlc]; rfl

/-- Its extent is the middle extent. -/
theorem contr_size (hlc : d.lhsContracting = [1]) :
    d.contr.size ⟨0, by rw [contr_rank d hlc]; exact Nat.one_pos⟩ = K := by
  obtain ⟨lc, rc, ln, rn, lb, rb, wf⟩ := d
  dsimp only at hlc
  subst hlc
  simp [DotDims.contr]

/-- The left operand is read at (row of the result, contraction position). -/
theorem lhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.lhsIdx (ix2 a b) ((contrEquiv1 d K (contr_rank d hlc) (contr_size d hlc)).symm q) = ix2 a q := by
  funext ax
  apply Fin.ext
  match ax with
  | ⟨1, _⟩ =>
    have h := DotDims.lhsIdx_val_of_single d (cl := (1 : Fin 2)) hlc (ix2 a b)
      ((contrEquiv1 d K (contr_rank d hlc) (contr_size d hlc)).symm q)
    rw [contrEquiv1_symm_val] at h
    exact h
  | ⟨0, _⟩ =>
    obtain ⟨lc, rc, ln, rn, lb, rb, wf⟩ := d
    dsimp only at hlc hrc hln hrn hlb hrb
    subst hlc hrc hln hrn hlb hrb
    simp [DotDims.lhsIdx]
    rfl

/-- The right operand is read at (contraction position, column of the result). -/
theorem rhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.rhsIdx (ix2 a b) ((contrEquiv1 d K (contr_rank d hlc) (contr_size d hlc)).symm q) = ix2 q b := by
  funext ax
  apply Fin.ext
  match ax with
  | ⟨0, _⟩ =>
    have h := DotDims.rhsIdx_val_of_single d (cr := (0 : Fin 2)) hrc (ix2 a b)
      ((contrEquiv1 d K (contr_rank d hlc) (contr_size d hlc)).symm q)
    rw [contrEquiv1_symm_val] at h
    exact h
  | ⟨1, _⟩ =>
    obtain ⟨lc, rc, ln, rn, lb, rb, wf⟩ := d
    dsimp only at hlc hrc hln hrn hlb hrb
    subst hlc hrc hln hrn hlb hrb
    simp [DotDims.rhsIdx]
    rfl

/-- The contraction's sum is the sum over the middle coordinate. -/
theorem plain_sum {β : Type*} [AddCommMonoid β] (hlc : d.lhsContracting = [1]) (hrc : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → β) (a : Fin M) (b : Fin N) :
    ∑ k : d.contr.Idx, f (d.lhsIdx (ix2 a b) k) (d.rhsIdx (ix2 a b) k) = ∑ q : Fin K, f (ix2 a q) (ix2 q b) := by
  rw [← Equiv.sum_comp (contrEquiv1 d K (contr_rank d hlc) (contr_size d hlc)).symm]
  refine Finset.sum_congr rfl fun q _ => ?_
  rw [lhs_plain d hlc hrc hln hrn hlb hrb a b q, rhs_plain d hlc hrc hln hrn hlb hrb a b q]

end Cert.LibPlainDot

end
-- ==== Proof.KernelRow.lean ====
/-
  The kernel body's value read one output row at a time.

  At one grid point the body holds a block of 32 batch items.  Its result at row `r`, column `j` of the block is read
  back layer by layer: the lane sum over the 1024 nodes divided by 1024 (the mean features), three dense layers — a
  matrix product into a zero accumulator plus a bias row broadcast over the 32 rows — with a rectifier after the
  first and the third, and the logistic function after the fourth.  A dense layer at (r, k) is the sum over the
  contracted coordinate q of left (r, q) · right (q, k), plus bias k.  The composition is `outRow` of row `r`'s node
  features and the weights: a row of the block depends on no other row.
-/
import proofs.«166866_j7327214207621_1_alg».proof.Proof.Gen.KernelIdeal.Skeleton
import proofs.«166866_j7327214207621_1_alg».proof.Proof.Spec
import proofs.«166866_j7327214207621_1_alg».proof.Proof.LibPlainDot
import Idealize.ShloMosaic.Lib.ValueLayout
import Idealize.ShloMosaic.PureOps.Ideal.Laws

noncomputable section

open scoped BigOperators

namespace Cert.GraphNet.Kern

open Cert.KernelIdeal Cert.KernelIdeal.Gen Idealize.ShloMosaic Idealize.ShloMosaic.ValueIdx
open Cert.GraphNet

/-- A dense layer read at an index: the product of an [M,K] and a [K,N] matrix accumulated into zeros, plus a
    length-N bias laid out as one row and broadcast over the M rows, at (r, k), is Σ_q a (r, q) · w (q, k) + bias k. -/
theorem dense_apply {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, K]⟩ .f32) (w : FVec Ideal ⟨2, ![K, N]⟩ .f32) (bias : FVec Ideal ⟨1, ![N]⟩ .f32)
    (hc : (⟨1, ![N]⟩ : Shape).ShapeCasts ⟨2, ![1, N]⟩) (hb : (⟨2, ![1, N]⟩ : Shape).Broadcasts ⟨2, ![M, N]⟩)
    (r : Fin M) (k : Fin N) :
    addf (matmul d none a w (constant (F := Ideal) ⟨2, ![M, N]⟩ .f32 0x00000000#32))
        (broadcastTo ⟨2, ![M, N]⟩ (shapeCast ⟨2, ![1, N]⟩ bias hc) hb) (ix2 r k)
      = ∑ q : Fin K, a (ix2 r q) * w (ix2 q k) + bias (ix1 k) := by
  rw [addf_apply]
  refine congrArg₂ (· + ·) ?_ ?_
  · exact (Ideal.matmul_constant_zero_apply d none a w (ix2 r k)).trans
      (Cert.LibPlainDot.plain_sum d hlc hrc hln hrn hlb hrb (fun i j => a i * w j) r k)
  · exact (broadcastTo_1b_ab_apply _ hb r k).trans (shapeCast_a_1a_apply bias hc 0 k)

variable (v0 : FVec Ideal S32x1024x3 .f32) (v4 : FVec Ideal S3x256 .f32) (v6 : FVec Ideal S256 .f32)
  (v12 : FVec Ideal S256x256 .f32) (v14 : FVec Ideal S256 .f32) (v18 : FVec Ideal S256x256 .f32)
  (v20 : FVec Ideal S256 .f32) (v26 : FVec Ideal S256x5 .f32) (v28 : FVec Ideal S5 .f32)

/-! ## The body's layers, named -/

/-- The block's mean features: the sum over the node axis divided by 1024. -/
def kMean : FVec Ideal S32x3 .f32 :=
  divf (multiReduction .add [1] S32x3 v0 0x00000000#32 reduces_S32x1024x3_S32x3 (.inl rfl) rfl)
    (broadcast S32x3 (Scalar.ofBits .f32 0x44800000#32))

/-- The block's first layer. -/
def kHid1 : FVec Ideal S32x256 .f32 :=
  maximumf (addf (matmul dot_S32x3_S3x256_S32x256_1_0_0_1_n_n none (kMean v0) v4 (constant S32x256 .f32 0x00000000#32))
      (broadcastTo S32x256 (shapeCast S1x256 v6 shapeCasts_S256_S1x256) broadcasts_S1x256_S32x256))
    (broadcast S32x256 (Scalar.ofBits .f32 0x00000000#32))

/-- The block's second layer. -/
def kHid2 : FVec Ideal S32x256 .f32 :=
  addf (matmul dot_S32x256_S256x256_S32x256_1_0_0_1_n_n none (kHid1 v0 v4 v6) v12 (constant S32x256 .f32 0x00000000#32))
    (broadcastTo S32x256 (shapeCast S1x256 v14 shapeCasts_S256_S1x256) broadcasts_S1x256_S32x256)

/-- The block's readout layer. -/
def kHid3 : FVec Ideal S32x256 .f32 :=
  maximumf (addf (matmul dot_S32x256_S256x256_S32x256_1_0_0_1_n_n none (kHid2 v0 v4 v6 v12 v14) v18 (constant S32x256 .f32 0x00000000#32))
      (broadcastTo S32x256 (shapeCast S1x256 v20 shapeCasts_S256_S1x256) broadcasts_S1x256_S32x256))
    (broadcast S32x256 (Scalar.ofBits .f32 0x00000000#32))

/-- The body's stored value is the logistic function of the final dense layer over these. -/
theorem pay_eq : k0_pay1 (F := Ideal) v0 v4 v6 v12 v14 v18 v20 v26 v28
    = logistic (addf (matmul dot_S32x256_S256x5_S32x5_1_0_0_1_n_n none (kHid3 v0 v4 v6 v12 v14 v18 v20) v26 (constant S32x5 .f32 0x00000000#32))
        (broadcastTo S32x5 (shapeCast S1x5 v28 shapeCasts_S5_S1x5) broadcasts_S1x5_S32x5)) := rfl

/-! ## Each layer at an index -/

/-- The mean features of row `r`. -/
theorem kMean_apply (r : Fin 32) (d : Fin 3) : kMean v0 (ix2 r d) = mean (fun n d => v0 (ix3 r n d)) d := by
  unfold kMean mean
  rw [divf_apply, broadcast_apply]
  refine congrArg₂ Ideal.div ?_ ofBits_1024
  refine (Ideal.multiReduction_add_single v0 0x00000000#32 reduces_S32x1024x3_S32x3 (.inl rfl) rfl (ix2 r d)).trans ?_
  exact Finset.sum_congr rfl fun n _ => congrArg v0 (funext fun a => Fin.ext (by
    match a with | ⟨0, _⟩ => rfl | ⟨1, _⟩ => rfl | ⟨2, _⟩ => rfl))

/-- The first layer of row `r`. -/
theorem kHid1_apply (r : Fin 32) (k : Fin 256) :
    kHid1 v0 v4 v6 (ix2 r k) = hid1 (fun n d => v0 (ix3 r n d)) v4 v6 k := by
  unfold kHid1 hid1
  rw [maximumf_apply, broadcast_apply]
  refine congrArg₂ max ?_ ofBits_zero
  refine (dense_apply dot_S32x3_S3x256_S32x256_1_0_0_1_n_n rfl rfl rfl rfl rfl rfl (kMean v0) v4 v6
    shapeCasts_S256_S1x256 broadcasts_S1x256_S32x256 r k).trans ?_
  simp only [kMean_apply]

/-- The second layer of row `r`. -/
theorem kHid2_apply (r : Fin 32) (k : Fin 256) :
    kHid2 v0 v4 v6 v12 v14 (ix2 r k) = hid2 (fun n d => v0 (ix3 r n d)) v4 v6 v12 v14 k := by
  unfold kHid2 hid2
  refine (dense_apply dot_S32x256_S256x256_S32x256_1_0_0_1_n_n rfl rfl rfl rfl rfl rfl (kHid1 v0 v4 v6) v12 v14
    shapeCasts_S256_S1x256 broadcasts_S1x256_S32x256 r k).trans ?_
  simp only [kHid1_apply]

/-- The readout layer of row `r`. -/
theorem kHid3_apply (r : Fin 32) (k : Fin 256) :
    kHid3 v0 v4 v6 v12 v14 v18 v20 (ix2 r k) = hid3 (fun n d => v0 (ix3 r n d)) v4 v6 v12 v14 v18 v20 k := by
  unfold kHid3 hid3
  rw [maximumf_apply, broadcast_apply]
  refine congrArg₂ max ?_ ofBits_zero
  refine (dense_apply dot_S32x256_S256x256_S32x256_1_0_0_1_n_n rfl rfl rfl rfl rfl rfl (kHid2 v0 v4 v6 v12 v14) v18 v20
    shapeCasts_S256_S1x256 broadcasts_S1x256_S32x256 r k).trans ?_
  simp only [kHid2_apply]

/-- The body's stored value at row `r`, column `j` of the block is the output row of row `r`'s node features. -/
theorem pay_apply (r : Fin 32) (j : Fin 5) :
    k0_pay1 (F := Ideal) v0 v4 v6 v12 v14 v18 v20 v26 v28 (ix2 r j)
      = outRow (fun n d => v0 (ix3 r n d)) v4 v6 v12 v14 v18 v20 v26 v28 j := by
  rw [pay_eq]
  unfold outRow
  refine congrArg Ideal.logistic ?_
  refine (dense_apply dot_S32x256_S256x5_S32x5_1_0_0_1_n_n rfl rfl rfl rfl rfl rfl (kHid3 v0 v4 v6 v12 v14 v18 v20) v26 v28
    shapeCasts_S5_S1x5 broadcasts_S1x5_S32x5 r j).trans ?_
  simp only [kHid3_apply]

end Cert.GraphNet.Kern

end
-- ==== Proof.KernelValue.lean ====
/-
  From the body's blocks to the whole result array.

  The grid has 8 points; point `t` stages batch items 32·t … 32·t + 31 of the node features (all nodes, all
  features), every weight array whole, and writes back rows 32·t … 32·t + 31 of the result.  What it writes at row
  `r` of its block is the output row of batch item 32·t + r (the body's value row by row), which is row 32·t + r of
  the whole result: each point writes its block of ONE function of the argument arrays.  The 8 blocks cover the 256
  rows (row `i` lies in the block of point `i / 32`), so the result array ends holding that function.
-/
import proofs.«166866_j7327214207621_1_alg».proof.Proof.Gen.KernelIdeal.Value
import proofs.«166866_j7327214207621_1_alg».proof.Proof.KernelRow

noncomputable section

open Idealize.ShloMosaic Idealize.ShloMosaic.TcCoe Idealize.SL.Sem
open Idealize.ShloMosaic.Pipeline (Dat)

namespace Cert.GraphNet.Whole

open Cert.KernelIdeal Cert.KernelIdeal.Gen Idealize.ShloMosaic.ValueIdx
open Cert.GraphNet

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block index maps over the grid: the node features' and the result's first block coordinate is the point
    itself, every other block coordinate is 0 (the weights are staged whole). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- One block against the whole: if the staged node features are batch items 32·q … 32·q + 31 of the array and the
    staged weights are the weight arrays, the body's value at (r, j) is the whole result at (32·q + r, j). -/
theorem block_eq (x : S256x1024x3.Idx → EReal) (W1 : S3x256.Idx → EReal) (b1 : S256.Idx → EReal)
    (W2 : S256x256.Idx → EReal) (b2 : S256.Idx → EReal) (Wr : S256x256.Idx → EReal) (br : S256.Idx → EReal)
    (Wf : S256x5.Idx → EReal) (bf : S5.Idx → EReal)
    (x0 : FVec Ideal S32x1024x3 .f32) (w1 : FVec Ideal S3x256 .f32) (c1 : FVec Ideal S256 .f32)
    (w2 : FVec Ideal S256x256 .f32) (c2 : FVec Ideal S256 .f32) (wr : FVec Ideal S256x256 .f32)
    (cr : FVec Ideal S256 .f32) (wf : FVec Ideal S256x5 .f32) (cf : FVec Ideal S5 .f32)
    (q : ℕ) (hq : q < 8)
    (h0 : ∀ (r : Fin 32) (n : Fin 1024) (d : Fin 3),
      x0 (ix3 r n d) = x (ix3 (⟨q * 32 + r.val, by have := r.isLt; omega⟩ : Fin 256) n d))
    (h1 : w1 = W1) (h2 : c1 = b1) (h3 : w2 = W2) (h4 : c2 = b2) (h5 : wr = Wr) (h6 : cr = br) (h7 : wf = Wf) (h8 : cf = bf)
    (j : S32x5.Idx) (i : S256x5.Idx) (hi0 : (i 0).val = q * 32 + (j 0).val) (hi1 : (i 1).val = (j 1).val) :
    k0_pay1 (F := Ideal) x0 w1 c1 w2 c2 wr cr wf cf j = result x W1 b1 W2 b2 Wr br Wf bf i := by
  subst h1 h2 h3 h4 h5 h6 h7 h8
  obtain ⟨r, s, rfl⟩ : ∃ (r : Fin 32) (s : Fin 5), j = ix2 r s := ⟨j 0, j 1, eq_ix2 j⟩
  obtain ⟨b, s', rfl⟩ : ∃ (b : Fin 256) (s' : Fin 5), i = ix2 b s' := ⟨i 0, i 1, eq_ix2 i⟩
  have eb : b = (⟨q * 32 + r.val, by have := r.isLt; omega⟩ : Fin 256) := Fin.ext hi0
  have es : s' = s := Fin.ext hi1
  rw [eb, es, Kern.pay_apply, result_apply]
  simp only [h0]

/-- What point `t` writes back is block `t` of the whole result of the argument arrays. -/
theorem flushed_eq (c : Dev nD) (t : Fin cfg0.N) :
    (dats m 0 c).flushed 9 t = ((cfg0.win 9).blk t).view.read (Elt Ideal)
      (result (V m c main_arg0) (V m c main_arg1) (V m c main_arg2) (V m c main_arg3) (V m c main_arg4) (V m c main_arg5)
        (V m c main_arg6) (V m c main_arg7) (V m c main_arg8)) := by
  rw [Cert.KernelIdeal.Value.flushed9]
  unfold out0_9
  rw [View.canon_unit_zero hz2]
  simp only [View.ld_unit_zero (S := S32x1024x3) hz3, View.ld_unit_zero (S := S3x256) hz2, View.ld_unit_zero (S := S256) hz1,
    View.ld_unit_zero (S := S256x256) hz2, View.ld_unit_zero (S := S256x5) hz2, View.ld_unit_zero (S := S5) hz1]
  obtain ⟨e00, e01, e02, e10, e11, e20, e30, e31, e40, e50, e51, e60, e70, e71, e80, e90, e91⟩ := idx_facts t
  have hN : grid0.N = 8 := N_0
  have ht : t.val < 8 := by have h : t.val < grid0.N := t.isLt; omega
  funext j
  refine block_eq (V m c main_arg0) (V m c main_arg1) (V m c main_arg2) (V m c main_arg3) (V m c main_arg4) (V m c main_arg5)
    (V m c main_arg6) (V m c main_arg7) (V m c main_arg8)
    (iblk m c 0 t) (iblk m c 1 t) (iblk m c 2 t) (iblk m c 3 t) (iblk m c 4 t) (iblk m c 5 t) (iblk m c 6 t) (iblk m c 7 t)
    (iblk m c 8 t) t.val ht ?_ ?_ ?_ ?_ ?_ ?_ ?_ ?_ ?_ j (((cfg0.win 9).blk t).view.emb j) ?_ ?_
  · intro r n d
    show V m c main_arg0 (((cfg0.win 0).blk t).view.emb (ix3 r n d)) = _
    refine congrArg _ (funext fun a => Fin.ext ?_)
    match a with
    | ⟨0, _⟩ => show win0_0.index t (0 : Fin 3) * 32 + 1 * r.val = t.val * 32 + r.val; omega
    | ⟨1, _⟩ => show win0_0.index t (1 : Fin 3) * 1024 + 1 * n.val = n.val; omega
    | ⟨2, _⟩ => show win0_0.index t (2 : Fin 3) * 3 + 1 * d.val = d.val; omega
  · funext y
    show V m c main_arg1 (((cfg0.win 1).blk t).view.emb y) = V m c main_arg1 y
    refine congrArg _ (funext fun a => Fin.ext ?_)
    match a with
    | ⟨0, _⟩ => show win0_1.index t (0 : Fin 2) * 3 + 1 * (y 0).val = (y 0).val; omega
    | ⟨1, _⟩ => show win0_1.index t (1 : Fin 2) * 256 + 1 * (y 1).val = (y 1).val; omega
  · funext y
    show V m c main_arg2 (((cfg0.win 2).blk t).view.emb y) = V m c main_arg2 y
    refine congrArg _ (funext fun a => Fin.ext ?_)
    match a with
    | ⟨0, _⟩ => show win0_2.index t (0 : Fin 1) * 256 + 1 * (y 0).val = (y 0).val; omega
  · funext y
    show V m c main_arg3 (((cfg0.win 3).blk t).view.emb y) = V m c main_arg3 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  · funext y
    show V m c main_arg4 (((cfg0.win 4).blk t).view.emb y) = V m c main_arg4 y
    refine congrArg _ (funext fun a => Fin.ext ?_)
    match a with
    | ⟨0, _⟩ => show win0_4.index t (0 : Fin 1) * 256 + 1 * (y 0).val = (y 0).val; omega
  · funext y
    show V m c main_arg5 (((cfg0.win 5).blk t).view.emb y) = V m c main_arg5 y
    refine congrArg _ (funext fun a => Fin.ext ?_)
    match a with
    | ⟨0, _⟩ => show win0_5.index t (0 : Fin 2) * 256 + 1 * (y 0).val = (y 0).val; omega
    | ⟨1, _⟩ => show win0_5.index t (1 : Fin 2) * 256 + 1 * (y 1).val = (y 1).val; omega
  · funext y
    show V m c main_arg6 (((cfg0.win 6).blk t).view.emb y) = V m c main_arg6 y
    refine congrArg _ (funext fun a => Fin.ext ?_)
    match a with
    | ⟨0, _⟩ => show win0_6.index t (0 : Fin 1) * 256 + 1 * (y 0).val = (y 0).val; omega
  · funext y
    show V m c main_arg7 (((cfg0.win 7).blk t).view.emb y) = V m c main_arg7 y
    refine congrArg _ (funext fun a => Fin.ext ?_)
    match a with
    | ⟨0, _⟩ => show win0_7.index t (0 : Fin 2) * 256 + 1 * (y 0).val = (y 0).val; omega
    | ⟨1, _⟩ => show win0_7.index t (1 : Fin 2) * 5 + 1 * (y 1).val = (y 1).val; omega
  · funext y
    show V m c main_arg8 (((cfg0.win 8).blk t).view.emb y) = V m c main_arg8 y
    refine congrArg _ (funext fun a => Fin.ext ?_)
    match a with
    | ⟨0, _⟩ => show win0_8.index t (0 : Fin 1) * 5 + 1 * (y 0).val = (y 0).val; omega
  · show win0_9.index t (0 : Fin 2) * 32 + 1 * (j 0).val = t.val * 32 + (j 0).val; omega
  · show win0_9.index t (1 : Fin 2) * 5 + 1 * (j 1).val = (j 1).val; omega

/-- An index of the result array is in point `t`'s block iff each coordinate is in the block's range on its axis. -/
theorem mem_blk (t : Fin cfg0.N) (i : S256x5.Idx) :
    i ∈ ((cfg0.win 9).blk t).view.set ↔ ∀ a : Fin 2, win0_9.index t a * S32x5.size a ≤ (i a).val
      ∧ (i a).val < win0_9.index t a * S32x5.size a + S32x5.size a := by
  show i ∈ ((View.whole main_v0).slice (win0_9.rect t)).set ↔ _
  rw [View.set_slice_whole, Rect.mem_set_unit]
  exact Iff.rfl

/-- Every index of the result array is in some point's block: row `i` in that of point `i / 32`. -/
theorem cover (i : S256x5.Idx) :
    ∃ t : Fin cfg0.N, (cfg0.win 9).flush t = true ∧ i ∈ ((cfg0.win 9).blk t).view.set := by
  have hi0 : (i 0).val < 256 := (i 0).isLt
  have hi1 : (i 1).val < 5 := (i 1).isLt
  have hN : grid0.N = 8 := N_0
  let t : Fin cfg0.N := ⟨(i 0).val / 32, by show (i 0).val / 32 < grid0.N; omega⟩
  have htv : t.val = (i 0).val / 32 := rfl
  obtain ⟨e00, e01, e02, e10, e11, e20, e30, e31, e40, e50, e51, e60, e70, e71, e80, e90, e91⟩ := idx_facts t
  refine ⟨t, flush0_9 t, ?_⟩
  rw [mem_blk]
  intro a
  match a with
  | ⟨0, _⟩ => show win0_9.index t (0 : Fin 2) * 32 ≤ (i 0).val ∧ (i 0).val < win0_9.index t (0 : Fin 2) * 32 + 32; omega
  | ⟨1, _⟩ => show win0_9.index t (1 : Fin 2) * 5 ≤ (i 1).val ∧ (i 1).val < win0_9.index t (1 : Fin 2) * 5 + 5; omega

/-- The result array after the run is the whole result of the argument arrays. -/
theorem final (c : Dev nD) : (dats m 0 c).arrAt 9 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (dats m 0 c).arrAt_eq_of_cover 9 _ (fun t _ => flushed_eq m c t) cover

/-- The kernel's run, read: the result array ends at the whole result of the argument arrays, which are unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.GraphNet.Whole

end
-- ==== Proof.RefRow.lean ====
/-
  The reference program read one output row at a time.

  The reference's result at row `b`, column `j` is read back through its operations, outermost first: the logistic
  function written out over the final matrix product, the rectified readout product, the second layer (a mean over
  the 1024 nodes of a product whose left factor does not depend on the node), the rectified first layer (a mean
  over the nodes of the per-node product with the first weight matrix).  Each stage is stated at an index given by
  its coordinates, the sums over the contracted or reduced coordinate; the composition is the reference's
  arrangement `refOutRow` of the row's node features and the weights.
-/
import proofs.«166866_j7327214207621_1_alg».proof.Proof.Gen.ReferenceIdeal.Read
import proofs.«166866_j7327214207621_1_alg».proof.Proof.Spec

noncomputable section

open scoped BigOperators

namespace Cert.GraphNet.Ref

open Cert.ReferenceIdeal Cert.ReferenceIdeal.Gen Cert.ReferenceIdeal.Read Idealize.ShloMosaic Idealize.ShloMosaic.ValueIdx
open Cert.GraphNet

variable (x0 : (⟨S256x1024x3, .f32⟩ : BufTy).Contents (Elt Ideal)) (x1 : (⟨S3x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x5, .f32⟩ : BufTy).Contents (Elt Ideal))
  (x8 : (⟨S5, .f32⟩ : BufTy).Contents (Elt Ideal))

/-- The mean over the nodes of the per-node first product, at batch item `b` and hidden unit `k` (the kept unit
    axis's coordinate `u` is 0): the sum from 0 over the nodes of the products' sums over the three features,
    divided by 1024. -/
theorem mean1_apply (b : Fin 256) (u : Fin 1) (k : Fin 256) :
    val_main_v4 (F := Ideal) x0 x1 (ix3 b u k)
      = Ideal.div (0 + ∑ n : Fin 1024, ∑ d : Fin 3, x0 (ix3 b n d) * x1 (ix2 d k)) ((1024 : ℝ) : EReal) := by
  rw [val_main_v4_apply, val_main_v2_apply, val_main_v3_apply, val_main_cst_0_apply, val_main_v1_apply, val_main_cst_apply]
  simp only [val_main_v0_apply]
  have el : ∀ (n : Fin 1024) (d : Fin 3), lidx_main_v0 (idx_main_v1 (idx_main_v2 (ix3 b u k)) n) d = ix3 b n d :=
    fun n d => funext fun a => Fin.ext (by match a with | ⟨0, _⟩ => rfl | ⟨1, _⟩ => rfl | ⟨2, _⟩ => rfl)
  have er : ∀ (n : Fin 1024) (d : Fin 3), ridx_main_v0 (idx_main_v1 (idx_main_v2 (ix3 b u k)) n) d = ix2 d k :=
    fun n d => funext fun a => Fin.ext (by match a with | ⟨0, _⟩ => rfl | ⟨1, _⟩ => rfl)
  simp only [el, er, Ideal.hostDivf_def, Ideal.ofBits_def, ofBits_1024, ofBits_zero]

/-- The rectified first layer at batch item `b`, node `n`, hidden unit `k`: it does not depend on the node. -/
theorem relu1_apply (b : Fin 256) (n : Fin 1024) (k : Fin 256) :
    val_main_v9 (F := Ideal) x0 x1 x2 (ix3 b n k)
      = max (val_main_v4 (F := Ideal) x0 x1 (ix3 b (0 : Fin 1) k) + x2 (ix1 k)) 0 := by
  rw [val_main_v9_apply, val_main_v8_apply, val_main_v5_apply, val_main_v7_apply, val_main_v6_apply,
    val_main_call0_v0_apply, val_main_call0_cst_apply]
  have e5 : idx_main_v5 (ix3 b n k) = ix3 b (0 : Fin 1) k :=
    funext fun a => Fin.ext (by match a with | ⟨0, _⟩ => rfl | ⟨1, _⟩ => rfl | ⟨2, _⟩ => rfl)
  have e6 : idx_main_v6 (idx_main_v7 (ix3 b n k)) = ix1 k :=
    funext fun a => Fin.ext (by match a with | ⟨0, _⟩ => rfl)
  simp only [e5, e6, Ideal.maximumf_def, Ideal.addf_def, Ideal.ofBits_def, ofBits_zero]

/-- The second layer at batch item `b`, unit `k`: the mean over the nodes of the product of the rectified first
    layer with the second weight matrix, plus the bias. -/
theorem layer2_apply (b : Fin 256) (k : Fin 256) :
    val_main_v16 (F := Ideal) x0 x1 x2 x3 x4 (ix2 b k)
      = Ideal.div (0 + ∑ n : Fin 1024, ∑ h : Fin 256, val_main_v9 (F := Ideal) x0 x1 x2 (ix3 b n h) * x3 (ix2 h k))
          ((1024 : ℝ) : EReal) + x4 (ix1 k) := by
  rw [val_main_v16_apply, val_main_v13_apply, val_main_v15_apply, val_main_v14_apply, val_main_v12_apply,
    val_main_cst_2_apply, val_main_v11_apply, val_main_cst_1_apply]
  simp only [val_main_v10_apply]
  have el : ∀ (n : Fin 1024) (h : Fin 256), lidx_main_v10 (idx_main_v11 (ix2 b k) n) h = ix3 b n h :=
    fun n h => funext fun a => Fin.ext (by match a with | ⟨0, _⟩ => rfl | ⟨1, _⟩ => rfl | ⟨2, _⟩ => rfl)
  have er : ∀ (n : Fin 1024) (h : Fin 256), ridx_main_v10 (idx_main_v11 (ix2 b k) n) h = ix2 h k :=
    fun n h => funext fun a => Fin.ext (by match a with | ⟨0, _⟩ => rfl | ⟨1, _⟩ => rfl)
  have e14 : idx_main_v14 (idx_main_v15 (ix2 b k)) = ix1 k :=
    funext fun a => Fin.ext (by match a with | ⟨0, _⟩ => rfl)
  simp only [el, er, e14, Ideal.hostDivf_def, Ideal.addf_def, Ideal.ofBits_def, ofBits_1024, ofBits_zero]

/-- The rectified readout layer at batch item `b`, unit `k`. -/
theorem readout_apply (b : Fin 256) (k : Fin 256) :
    val_main_v21 (F := Ideal) x0 x1 x2 x3 x4 x5 x6 (ix2 b k)
      = max (∑ h : Fin 256, val_main_v16 (F := Ideal) x0 x1 x2 x3 x4 (ix2 b h) * x5 (ix2 h k) + x6 (ix1 k)) 0 := by
  rw [val_main_v21_apply, val_main_v20_apply, val_main_v19_apply, val_main_v18_apply, val_main_call1_v0_apply,
    val_main_call1_cst_apply, val_main_v17_apply]
  have el : ∀ h : Fin 256, lidx_main_v17 (ix2 b k) h = ix2 b h :=
    fun h => funext fun a => Fin.ext (by match a with | ⟨0, _⟩ => rfl | ⟨1, _⟩ => rfl)
  have er : ∀ h : Fin 256, ridx_main_v17 (ix2 b k) h = ix2 h k :=
    fun h => funext fun a => Fin.ext (by match a with | ⟨0, _⟩ => rfl | ⟨1, _⟩ => rfl)
  have e18 : idx_main_v18 (idx_main_v19 (ix2 b k)) = ix1 k :=
    funext fun a => Fin.ext (by match a with | ⟨0, _⟩ => rfl)
  simp only [el, er, e18, Ideal.maximumf_def, Ideal.addf_def, Ideal.ofBits_def, ofBits_zero]

/-- The result at batch item `b`, output `j`: 1 / (1 + e^(-z)) of the final product plus the bias. -/
theorem out_apply (b : Fin 256) (j : Fin 5) :
    val_main_v31 (F := Ideal) x0 x1 x2 x3 x4 x5 x6 x7 x8 (ix2 b j)
      = Ideal.div 1 (1 + Ideal.exp (-(∑ h : Fin 256, val_main_v21 (F := Ideal) x0 x1 x2 x3 x4 x5 x6 (ix2 b h) * x7 (ix2 h j)
          + x8 (ix1 j)))) := by
  rw [val_main_v31_apply, val_main_v30_apply, val_main_cst_4_apply, val_main_v29_apply, val_main_v28_apply,
    val_main_cst_3_apply, val_main_v27_apply, val_main_v26_apply, val_main_v25_apply, val_main_v24_apply,
    val_main_v23_apply, val_main_v22_apply]
  have el : ∀ h : Fin 256, lidx_main_v22 (ix2 b j) h = ix2 b h :=
    fun h => funext fun a => Fin.ext (by match a with | ⟨0, _⟩ => rfl | ⟨1, _⟩ => rfl)
  have er : ∀ h : Fin 256, ridx_main_v22 (ix2 b j) h = ix2 h j :=
    fun h => funext fun a => Fin.ext (by match a with | ⟨0, _⟩ => rfl | ⟨1, _⟩ => rfl)
  have e23 : idx_main_v23 (idx_main_v24 (ix2 b j)) = ix1 j :=
    funext fun a => Fin.ext (by match a with | ⟨0, _⟩ => rfl)
  simp only [el, er, e23, Ideal.hostDivf_def, Ideal.addf_def, Ideal.hostUnary_exp_def, Ideal.hostNegf_def, Ideal.negf_def,
    Ideal.ofBits_def, ofBits_one]

/-- The reference's result at row `b`, column `j` is its arrangement of that row's node features and the weights. -/
theorem row_apply (b : Fin 256) (j : Fin 5) :
    val_main_v31 (F := Ideal) x0 x1 x2 x3 x4 x5 x6 x7 x8 (ix2 b j)
      = refOutRow (fun n d => x0 (ix3 b n d)) x1 x2 x3 x4 x5 x6 x7 x8 j := by
  unfold refOutRow refHid3 refHid2 refHid1
  rw [out_apply]
  simp only [readout_apply, layer2_apply, relu1_apply, mean1_apply]

/-- For real node features, first weights, first bias and second weights, the reference's result array is the whole
    result: its arrangement of each row agrees with the kernel's by the two laws. -/
theorem ref_eq (hx : ∀ i, ∃ r : ℝ, x0 i = (r : EReal)) (hW1 : ∀ i, ∃ r : ℝ, x1 i = (r : EReal))
    (hb1 : ∀ i, ∃ r : ℝ, x2 i = (r : EReal)) (hW2 : ∀ i, ∃ r : ℝ, x3 i = (r : EReal)) :
    val_main_v31 (F := Ideal) x0 x1 x2 x3 x4 x5 x6 x7 x8 = result x0 x1 x2 x3 x4 x5 x6 x7 x8 := by
  funext i
  obtain ⟨b, j, rfl⟩ : ∃ (b : Fin 256) (j : Fin 5), i = ix2 b j := ⟨i 0, i 1, eq_ix2 i⟩
  rw [row_apply, result_apply]
  exact refOutRow_eq _ x1 x2 x3 x4 x5 x6 x7 x8 (fun n d => hx _) hW1 hb1 hW2 j

end Cert.GraphNet.Ref

end
-- ==== Proof.Finite.lean ====
import proofs.«166866_j7327214207621_1_alg».proof.Pre_finite_inputs
import Idealize.ShloMosaic.PureOps.Ideal
import Idealize.ShloMosaic.PureOps.Ideal.Laws
import Idealize.ShloMosaic.Lib.ReduceAll
import Idealize.ShloMosaic.Lib.ValueIdx

/-!
  The finiteness precondition, read back. The precondition computes, for each of the nine arguments, the
  conjunction over all entries of `|x| < +∞`, and joins the nine results by `and`. If the result is 1 then every
  entry of every argument is a real number (neither infinity, nor the junk value `⊥` a NaN denotes). Here this is
  derived for the first four arguments.
-/

noncomputable section

open Idealize.ShloMosaic

namespace Cert.Finite

open Cert.Pre_finite_inputs

/-- The scalar shape has one index. -/
instance : Subsingleton S_.Idx := ⟨fun a b => funext fun d => d.elim0⟩

/-- An extended real whose absolute value `max x (-x)` lies strictly below `⊤` is a real. -/
theorem real_of_abs_lt_top (x : EReal) (hx : max x (-x) < ⊤) : ∃ r : ℝ, x = (r : EReal) := by
  induction x using EReal.rec with
  | bot => simp at hx
  | coe r => exact ⟨r, rfl⟩
  | top => simp at hx

/-- One argument: if the `and`-reduction over all entries of `|a i| < +∞` (the bound being the word
    `0x7F800000`, which denotes `⊤`) is 1, every entry of `a` is a real. -/
theorem all_real {s : Shape} (a : FVec Ideal s .f32)
    (hb : S_.BroadcastsInDim s (![] : Fin 0 → Fin s.rank)) {axes : List (Fin s.rank)}
    (hr : s.ReducesTo axes S_) (hS : 0 < S_.numel)
    (e : Host.reduce IntOp.andi
        (cmpf .olt (Host.absf a) (broadcastInDim s ![] hb (constant (F := Ideal) S_ .f32 0x7F800000#32)))
        (constantI S_ 1 1#1) hr hS ValueIdx.ix0 = 1#1) :
    ∀ i, ∃ r : ℝ, a i = (r : EReal) := by
  intro i
  have h1 := Host.reduce_andi_all _ _ hr hS ValueIdx.ix0 e i
  apply real_of_abs_lt_top
  have h2 : Ideal.cmp .olt (max (a i) (-(a i))) (Ideal.ofBits .f32 0x7F800000#32) = 1#1 := h1
  have h3 : Ideal.ofBits .f32 0x7F800000#32 = ⊤ := by simp [Ideal.ofBits, Ideal.ieee]
  rw [h3] at h2
  by_contra hc
  have h4 : Ideal.cmp .olt (max (a i) (-(a i))) ⊤ = 0#1 := by
    simp only [Ideal.cmp, decide_eq_false hc]; rfl
  rw [h4] at h2
  exact absurd h2 (by decide)

/-- If the precondition evaluates to 1 on nine argument arrays, every entry of the first four — the node features,
    the first weight matrix, the first bias and the second weight matrix — is a real. -/
theorem fn_finite [Cert.Pre_finite_inputs.Facts]
    (a0 : FVec Ideal Cert.Pre_finite_inputs.S256x1024x3 .f32) (a1 : FVec Ideal Cert.Pre_finite_inputs.S3x256 .f32)
    (a2 : FVec Ideal Cert.Pre_finite_inputs.S256 .f32) (a3 : FVec Ideal Cert.Pre_finite_inputs.S256x256 .f32)
    (a4 : FVec Ideal Cert.Pre_finite_inputs.S256 .f32) (a5 : FVec Ideal Cert.Pre_finite_inputs.S256x256 .f32)
    (a6 : FVec Ideal Cert.Pre_finite_inputs.S256 .f32) (a7 : FVec Ideal Cert.Pre_finite_inputs.S256x5 .f32)
    (a8 : FVec Ideal Cert.Pre_finite_inputs.S5 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1, fn_part2] at h0
  -- The result is ((((((((p0 ∧ p1) ∧ p2) ∧ p3) ∧ p4) ∧ p5) ∧ p6) ∧ p7) ∧ p8): take the left conjunct five times.
  have h8 := (IntOp.andi_eq_one.1 h0).1
  have h7 := (IntOp.andi_eq_one.1 h8).1
  have h6 := (IntOp.andi_eq_one.1 h7).1
  have h5 := (IntOp.andi_eq_one.1 h6).1
  have h4 := (IntOp.andi_eq_one.1 h5).1
  obtain ⟨h012, p3⟩ := IntOp.andi_eq_one.1 h4
  obtain ⟨h01, p2⟩ := IntOp.andi_eq_one.1 h012
  obtain ⟨p0, p1⟩ := IntOp.andi_eq_one.1 h01
  exact ⟨all_real a0 _ _ _ p0, all_real a1 _ _ _ p1, all_real a2 _ _ _ p2, all_real a3 _ _ _ p3⟩

end Cert.Finite

end
-- ==== Proof.lean ====
/-
  A graph network on a complete graph, and its readout, against the plain computation.

  The kernel averages each batch item's node features over the 1024 nodes and then runs a four-layer network on the
  mean (rectifiers after the first and third layers, the logistic function at the end); the reference applies the
  first weight matrix at every node and averages afterwards, and applies the second weight matrix at every node to
  a first layer that does not depend on the node, averaging 1024 equal rows.  Over the extended reals, for finite
  inputs, both end at the same array `Cert.GraphNet.result` of the arguments:

    * the kernel's value, block by block, is that array (the body's value row by row, the 8 blocks covering the
      256 rows);
    * the reference's run read one operation at a time is its own arrangement of each row, which is the kernel's
      by linearity of the mean through a product of reals and because the mean of 1024 equal reals is that real.

  The precondition gives the finiteness the two laws need (of the node features, the first weights and bias and the
  second weights).  The frames of the two kernel programs are the generated ones; the reference's is its run with
  the result forgotten; no operation was rewritten by the idealization, so nothing is to be preserved.
-/
import proofs.«166866_j7327214207621_1_alg».proof.Defs
import proofs.«166866_j7327214207621_1_alg».proof.Proof.Gen.Kernel
import proofs.«166866_j7327214207621_1_alg».proof.Proof.Gen.Kernel.Skeleton
import proofs.«166866_j7327214207621_1_alg».proof.Proof.Gen.Kernel.Launch
import proofs.«166866_j7327214207621_1_alg».proof.Proof.Gen.Kernel.Points
import proofs.«166866_j7327214207621_1_alg».proof.Proof.Gen.Kernel.Frame
import proofs.«166866_j7327214207621_1_alg».proof.Proof.Gen.KernelIdeal
import proofs.«166866_j7327214207621_1_alg».proof.Proof.Gen.KernelIdeal.Skeleton
import proofs.«166866_j7327214207621_1_alg».proof.Proof.Gen.KernelIdeal.Launch
import proofs.«166866_j7327214207621_1_alg».proof.Proof.Gen.KernelIdeal.Points
import proofs.«166866_j7327214207621_1_alg».proof.Proof.Gen.KernelIdeal.Frame
import proofs.«166866_j7327214207621_1_alg».proof.Proof.Gen.ReferenceIdeal
import proofs.«166866_j7327214207621_1_alg».proof.Proof.Gen.Pre_finite_inputs
import proofs.«166866_j7327214207621_1_alg».proof.Proof.Gen.KernelIdeal.Value
import proofs.«166866_j7327214207621_1_alg».proof.Proof.Gen.ReferenceIdeal.Run
import proofs.«166866_j7327214207621_1_alg».proof.Proof.Gen.ReferenceIdeal.Read
import proofs.«166866_j7327214207621_1_alg».proof.Proof.KernelValue
import proofs.«166866_j7327214207621_1_alg».proof.Proof.RefRow
import proofs.«166866_j7327214207621_1_alg».proof.Proof.Finite
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, finite by the precondition, both programs end with the whole result
    of the kernel's arguments in their result arrays. -/
theorem algebraic : Cert.algebraic_KernelIdeal_ReferenceIdeal := by
  intro m ρ m' ρ' hpre hagree
  refine ⟨fun c => Cert.GraphNet.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)),
    Cert.GraphNet.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨f0, f1, f2, f3⟩ := Cert.Finite.fn_finite _ _ _ _ _ _ _ _ _ (hpre c)
  rw [Cert.ReferenceIdeal.Read.val_main_v31_eq, a0, a1, a2, a3, a4, a5, a6, a7, a8]
  exact Cert.GraphNet.Ref.ref_eq _ _ _ _ _ _ _ _ _ f0 f1 f2 f3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
